-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x32x512 : Shape := ⟨4, ![16, 32, 32, 512]⟩
abbrev S32x32x512 : Shape := ⟨3, ![32, 32, 512]⟩
abbrev S_ : Shape := ⟨0, ![]⟩

class Facts : Prop where
  bcast_S_S16x32x32x512 : S_.BroadcastsInDim S16x32x32x512 (![] : Fin 0 → Fin S16x32x32x512.rank)
  reducesTo_S16x32x32x512_S_d0_1_2_3 : S16x32x32x512.ReducesTo [0, 1, 2, 3] S_
  h_S_ : 0 < S_.numel
  bcast_S_S32x32x512 : S_.BroadcastsInDim S32x32x512 (![] : Fin 0 → Fin S32x32x512.rank)
  reducesTo_S32x32x512_S_d0_1_2 : S32x32x512.ReducesTo [0, 1, 2] S_

variable [Facts]

def fn {F : FTy → Type} [FloatOps F] (main_arg0 : FVec F S16x32x32x512 .f32) (main_arg1 : FVec F S16x32x32x512 .f32) (main_arg2 : FVec F S32x32x512 .f32) : IVec S_ 1 :=
  let main_v0 : FVec F S16x32x32x512 .f32 := Host.absf main_arg0
  let main_cst : FVec F S_ .f32 := constant S_ .f32 0x7F800000#32
  let main_v1 : FVec F S16x32x32x512 .f32 := broadcastInDim S16x32x32x512 ![] bcast_S_S16x32x32x512 main_cst
  let main_v2 : IVec S16x32x32x512 1 := cmpf .olt main_v0 main_v1
  let main_c : IVec S_ 1 := constantI S_ 1 1#1
  let main_v3 : IVec S_ 1 := (fun x v => Host.reduce IntOp.andi x v reducesTo_S16x32x32x512_S_d0_1_2_3 h_S_) main_v2 main_c
  let main_v4 : FVec F S16x32x32x512 .f32 := Host.absf main_arg1
  let main_cst_0 : FVec F S_ .f32 := constant S_ .f32 0x7F800000#32
  let main_v5 : FVec F S16x32x32x512 .f32 := broadcastInDim S16x32x32x512 ![] bcast_S_S16x32x32x512 main_cst_0
  let main_v6 : IVec S16x32x32x512 1 := cmpf .olt main_v4 main_v5
  let main_c_1 : IVec S_ 1 := constantI S_ 1 1#1
  let main_v7 : IVec S_ 1 := (fun x v => Host.reduce IntOp.andi x v reducesTo_S16x32x32x512_S_d0_1_2_3 h_S_) main_v6 main_c_1
  let main_v8 : IVec S_ 1 := andi main_v3 main_v7
  let main_v9 : FVec F S32x32x512 .f32 := Host.absf main_arg2
  let main_cst_2 : FVec F S_ .f32 := constant S_ .f32 0x7F800000#32
  let main_v10 : FVec F S32x32x512 .f32 := broadcastInDim S32x32x512 ![] bcast_S_S32x32x512 main_cst_2
  let main_v11 : IVec S32x32x512 1 := cmpf .olt main_v9 main_v10
  let main_c_3 : IVec S_ 1 := constantI S_ 1 1#1
  let main_v12 : IVec S_ 1 := (fun x v => Host.reduce IntOp.andi x v reducesTo_S32x32x512_S_d0_1_2 h_S_) main_v11 main_c_3
  let main_v13 : IVec S_ 1 := andi main_v8 main_v12
  main_v13
-- ==== Kernel.lean ====
abbrev S16x32x32x512 : Shape := ⟨4, ![16, 32, 32, 512]⟩
abbrev S32x32x512 : Shape := ⟨3, ![32, 32, 512]⟩
abbrev S16x1024x512 : Shape := ⟨3, ![16, 1024, 512]⟩
abbrev S1024x512 : Shape := ⟨2, ![1024, 512]⟩
abbrev S16x1024x1024 : Shape := ⟨3, ![16, 1024, 1024]⟩
abbrev S1x1024x512 : Shape := ⟨3, ![1, 1024, 512]⟩
abbrev S1x1024x1024 : Shape := ⟨3, ![1, 1024, 1024]⟩
abbrev S1024x1024 : Shape := ⟨2, ![1024, 1024]⟩
abbrev S16x32x32x32x32 : Shape := ⟨5, ![16, 32, 32, 32, 32]⟩

abbrev nBuf : Space → Nat
  | .hbm => 9
  | .vmem => 8
  | .smem => 0
  | _ => 0

abbrev bufTy : (tb : Table) → Fin (tcTables nBuf tb) → BufTy
  | .hbm, ⟨0, _⟩ => ⟨S16x32x32x512, .f32⟩
  | .hbm, ⟨1, _⟩ => ⟨S16x32x32x512, .f32⟩
  | .hbm, ⟨2, _⟩ => ⟨S32x32x512, .f32⟩
  | .hbm, ⟨3, _⟩ => ⟨S16x1024x512, .f32⟩
  | .hbm, ⟨4, _⟩ => ⟨S16x1024x512, .f32⟩
  | .hbm, ⟨5, _⟩ => ⟨S1024x512, .f32⟩
  | .hbm, ⟨6, _⟩ => ⟨S1024x512, .bf16⟩
  | .hbm, ⟨7, _⟩ => ⟨S16x1024x1024, .f32⟩
  | .hbm, ⟨8, _⟩ => ⟨S16x32x32x32x32, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1024x512, .f32⟩
  | .local _ .vmem, ⟨5, _⟩ => ⟨S1024x512, .bf16⟩
  | .local _ .vmem, ⟨6, _⟩ => ⟨S1x1024x1024, .f32⟩
  | .local _ .vmem, ⟨7, _⟩ => ⟨S1x1024x1024, .f32⟩
  | _, _ => ⟨S16x32x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x32x32x512_S16x1024x512 : S16x32x32x512.ShapeCasts S16x1024x512
  shapeCasts_S32x32x512_S1024x512 : S32x32x512.ShapeCasts S1024x512
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  concatenates_S1024x512_S1024x512_S1024x1024_d1 : Shape.Concatenates [S1024x512, S1024x512] S1024x1024 1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S16x1024x1024_S16x32x32x32x32 : S16x1024x1024.ShapeCasts S16x32x32x32x32
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S16x1024x512.size a
  hwx0_0 : ∀ i : grid0.Coords, EltTy.bits .f32 = 32 ∨ (Rect.block (s := S16x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S16x1024x512.size a
  hwx0_1 : ∀ i : grid0.Coords, EltTy.bits .f32 = 32 ∨ (Rect.block (s := S16x1024x512) S1x1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S16x1024x1024.size a
  hwx0_4 : ∀ i : grid0.Coords, EltTy.bits .f32 = 32 ∨ (Rect.block (s := S16x1024x1024) S1x1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x32x32x512 : Shape := ⟨4, ![16, 32, 32, 512]⟩
abbrev S32x32x512 : Shape := ⟨3, ![32, 32, 512]⟩
abbrev S16x32x32x32x32 : Shape := ⟨5, ![16, 32, 32, 32, 32]⟩
abbrev S1x32x32x512 : Shape := ⟨4, ![1, 32, 32, 512]⟩

abbrev nBuf : Space → Nat
  | .hbm => 10
  | .vmem => 0
  | .smem => 0
  | _ => 0

abbrev bufTy : (tb : Table) → Fin (tcTables nBuf tb) → BufTy
  | .hbm, ⟨0, _⟩ => ⟨S16x32x32x512, .f32⟩
  | .hbm, ⟨1, _⟩ => ⟨S16x32x32x512, .f32⟩
  | .hbm, ⟨2, _⟩ => ⟨S32x32x512, .f32⟩
  | .hbm, ⟨3, _⟩ => ⟨S16x32x32x32x32, .f32⟩
  | .hbm, ⟨4, _⟩ => ⟨S1x32x32x512, .f32⟩
  | .hbm, ⟨5, _⟩ => ⟨S16x32x32x512, .f32⟩
  | .hbm, ⟨6, _⟩ => ⟨S16x32x32x512, .f32⟩
  | .hbm, ⟨7, _⟩ => ⟨S16x32x32x32x32, .f32⟩
  | .hbm, ⟨8, _⟩ => ⟨S16x32x32x32x32, .f32⟩
  | .hbm, ⟨9, _⟩ => ⟨S16x32x32x32x32, .f32⟩
  | _, _ => ⟨S16x32x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S32x32x512_S1x32x32x512_1_2_3 : S32x32x512.BroadcastsInDim S1x32x32x512 (![1, 2, 3] : Fin 3 → Fin S1x32x32x512.rank)
  bcast_S1x32x32x512_S16x32x32x512_0_1_2_3 : S1x32x32x512.BroadcastsInDim S16x32x32x512 (![0, 1, 2, 3] : Fin 4 → Fin S16x32x32x512.rank)
  transposes_S16x32x32x32x32_S16x32x32x32x32_0_3_4_1_2 : S16x32x32x32x32.Transposes [0, 3, 4, 1, 2] S16x32x32x32x32
  dot_S16x32x32x512_S32x32x512_S16x32x32x32x32_3_2_012_01_n_n_wf : DotDims.WF S16x32x32x512 S32x32x512 S16x32x32x32x32 [3] [2] [0, 1, 2] [0, 1] [] []

variable [Facts₀]

def dot_S16x32x32x512_S32x32x512_S16x32x32x32x32_3_2_012_01_n_n : DotDims S16x32x32x512 S32x32x512 S16x32x32x32x32 where
  lhsContracting := [3]
  rhsContracting := [2]
  lhsNonContracting := [0, 1, 2]
  rhsNonContracting := [0, 1]
  lhsBatch := []
  rhsBatch := []
  wf := dot_S16x32x32x512_S32x32x512_S16x32x32x32x32_3_2_012_01_n_n_wf

class Facts : Prop extends Facts₀ where

variable [Facts]
-- ==== Proof.Spec.lean ====
/-
  The function both programs compute, written once.

  Positions (i, j) of the 32 × 32 grid are numbered p = 32·i + j, so q and k are [16, 1024, 512] arrays Q, K and the
  position embedding is a [1024, 512] array E (E' is the same array after the change of float format, which at the
  ideal instance is the identity). The logit of batch b between positions r and c is

      Σ_d Q[b, r, d] · E'[c, d]  +  Σ_d E'[r, d] · (K[b, c, d] + E[c, d]),

  the content-to-position term plus the position-to-(content + position) term. `flat` is that [16, 1024, 1024] array,
  `logits` the same numbers indexed [b, i, j, k, l] over the unflattened arguments, and `flat_eq_logits` says that the
  first at (b, 32·i + j, 32·k + l) is the second at (b, i, j, k, l) when the flat arrays are the row-major re-readings of
  the arguments.
-/
import Idealize.ShloMosaic.PureOps.Ideal
import Idealize.ShloMosaic.Lib.ValueIdx

noncomputable section

namespace Cert.Logits

open Idealize.ShloMosaic Idealize.ShloMosaic.ValueIdx

/-- The logit of batch `b` between flattened positions `r` and `c`. -/
def flatAt (Q K : (⟨3, ![16, 1024, 512]⟩ : Shape).Idx → EReal) (E E' : (⟨2, ![1024, 512]⟩ : Shape).Idx → EReal)
    (b : Fin 16) (r c : Fin 1024) : EReal :=
  (∑ d : Fin 512, Q (ix3 b r d) * E' (ix2 c d)) + ∑ d : Fin 512, E' (ix2 r d) * (K (ix3 b c d) + E (ix2 c d))

/-- The [16, 1024, 1024] array of logits over flattened positions. -/
def flat (Q K : (⟨3, ![16, 1024, 512]⟩ : Shape).Idx → EReal) (E E' : (⟨2, ![1024, 512]⟩ : Shape).Idx → EReal) :
    (⟨3, ![16, 1024, 1024]⟩ : Shape).Idx → EReal :=
  fun i => flatAt Q K E E' (i 0) (i 1) (i 2)

/-- The logit of batch `b` between grid positions (i, j) and (k, l), over the unflattened arguments. -/
def logitsAt (q k : (⟨4, ![16, 32, 32, 512]⟩ : Shape).Idx → EReal) (e : (⟨3, ![32, 32, 512]⟩ : Shape).Idx → EReal)
    (b : Fin 16) (i j k' l : Fin 32) : EReal :=
  (∑ d : Fin 512, q (ix4 b i j d) * e (ix3 k' l d)) + ∑ d : Fin 512, e (ix3 i j d) * (k (ix4 b k' l d) + e (ix3 k' l d))

/-- The [16, 32, 32, 32, 32] array of logits. -/
def logits (q k : (⟨4, ![16, 32, 32, 512]⟩ : Shape).Idx → EReal) (e : (⟨3, ![32, 32, 512]⟩ : Shape).Idx → EReal) :
    (⟨5, ![16, 32, 32, 32, 32]⟩ : Shape).Idx → EReal :=
  fun i => logitsAt q k e (i 0) (i 1) (i 2) (i 3) (i 4)

/-- Position (i, j) of the 32 × 32 grid, flattened. -/
def pos (i j : Fin 32) : Fin 1024 := ⟨32 * i.val + j.val, by have := i.isLt; have := j.isLt; omega⟩

/-- When Q, K, E, E' hold the arguments' entries at flattened positions, the flat logit between positions
    32·i + j and 32·k + l is the logit between (i, j) and (k, l). -/
theorem flatAt_eq_logitsAt (Q K : (⟨3, ![16, 1024, 512]⟩ : Shape).Idx → EReal) (E E' : (⟨2, ![1024, 512]⟩ : Shape).Idx → EReal)
    (q k : (⟨4, ![16, 32, 32, 512]⟩ : Shape).Idx → EReal) (e : (⟨3, ![32, 32, 512]⟩ : Shape).Idx → EReal)
    (hQ : ∀ (b : Fin 16) (i j : Fin 32) (d : Fin 512), Q (ix3 b (pos i j) d) = q (ix4 b i j d))
    (hK : ∀ (b : Fin 16) (i j : Fin 32) (d : Fin 512), K (ix3 b (pos i j) d) = k (ix4 b i j d))
    (hE : ∀ (i j : Fin 32) (d : Fin 512), E (ix2 (pos i j) d) = e (ix3 i j d))
    (hE' : ∀ (i j : Fin 32) (d : Fin 512), E' (ix2 (pos i j) d) = e (ix3 i j d))
    (b : Fin 16) (i j k' l : Fin 32) :
    flatAt Q K E E' b (pos i j) (pos k' l) = logitsAt q k e b i j k' l := by
  unfold flatAt logitsAt
  simp only [hQ, hK, hE, hE']

end Cert.Logits

end
-- ==== Proof.Entry.lean ====
/-
  What the region finds in the arrays its windows stage.

  Before the region the program re-reads q and k as [16, 1024, 512] arrays and the position embedding as a [1024, 512]
  array, row-major (grid position (i, j) becomes row 32·i + j), and makes a second copy of the embedding in the narrower
  float format, which at the ideal instance holds the same extended reals. So each staged array, read at a flattened
  position, is the corresponding argument read at the grid position.
-/
import proofs.«170519_j66151086293478_2_alg».proof.Proof.Gen.KernelIdeal.Frame
import proofs.«170519_j66151086293478_2_alg».proof.Proof.Spec
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo Cert.Logits

variable (m : (ℓ : Loc nD τ sig) → Buf (Elt Ideal) ℓ)

/-- The staged q is the argument q re-read row-major as [16, 1024, 512]. -/
theorem V_v0 (c : Dev nD) : (V m c main_v0 : S16x1024x512.Idx → EReal)
    = shapeCast S16x1024x512 (m ((c : Thread nD τ).loc main_arg0)) shapeCasts_S16x32x32x512_S16x1024x512 := by
  show StableHlo.after hostOps0 (fun b => m (c, b)) (Proc.devRef .tc main_v0) = _
  after_results
  rfl

/-- The staged k is the argument k re-read row-major as [16, 1024, 512]. -/
theorem V_v1 (c : Dev nD) : (V m c main_v1 : S16x1024x512.Idx → EReal)
    = shapeCast S16x1024x512 (m ((c : Thread nD τ).loc main_arg1)) shapeCasts_S16x32x32x512_S16x1024x512 := by
  show StableHlo.after hostOps0 (fun b => m (c, b)) (Proc.devRef .tc main_v1) = _
  after_results
  rfl

/-- The staged embedding is the argument re-read row-major as [1024, 512]. -/
theorem V_v2 (c : Dev nD) : (V m c main_v2 : S1024x512.Idx → EReal)
    = shapeCast S1024x512 (m ((c : Thread nD τ).loc main_arg2)) shapeCasts_S32x32x512_S1024x512 := by
  show StableHlo.after hostOps0 (fun b => m (c, b)) (Proc.devRef .tc main_v2) = _
  after_results
  rfl

/-- Its copy in the narrower format holds the same extended reals. -/
theorem V_v3 (c : Dev nD) : (V m c main_v3 : S1024x512.Idx → EReal)
    = shapeCast S1024x512 (m ((c : Thread nD τ).loc main_arg2)) shapeCasts_S32x32x512_S1024x512 := by
  show StableHlo.after hostOps0 (fun b => m (c, b)) (Proc.devRef .tc main_v3) = _
  after_results
  rfl

/-- Row 32·i + j of a [16, 1024, 512] re-reading is grid position (i, j). -/
theorem cast4_at (x : S16x32x32x512.Idx → EReal) (b : Fin 16) (i j : Fin 32) (d : Fin 512) :
    shapeCast S16x1024x512 x shapeCasts_S16x32x32x512_S16x1024x512 (ix3 b (pos i j) d) = x (ix4 b i j d) := by
  refine shapeCast_apply _ _ _ _ ?_
  rw [Shape.rowMajor_val_four, Shape.rowMajor_val_three]
  show ((b.val * 32 + i.val) * 32 + j.val) * 512 + d.val = (b.val * 1024 + (32 * i.val + j.val)) * 512 + d.val
  omega

/-- Row 32·i + j of the [1024, 512] re-reading is grid position (i, j). -/
theorem cast3_at (x : S32x32x512.Idx → EReal) (i j : Fin 32) (d : Fin 512) :
    shapeCast S1024x512 x shapeCasts_S32x32x512_S1024x512 (ix2 (pos i j) d) = x (ix3 i j d) := by
  refine shapeCast_apply _ _ _ _ ?_
  rw [Shape.rowMajor_val_three, Shape.rowMajor_val_two]
  show (i.val * 32 + j.val) * 512 + d.val = (32 * i.val + j.val) * 512 + d.val
  omega

/-- The staged q at flattened position 32·i + j is the argument q at (i, j). -/
theorem Q_at (c : Dev nD) (b : Fin 16) (i j : Fin 32) (d : Fin 512) :
    (V m c main_v0 : S16x1024x512.Idx → EReal) (ix3 b (pos i j) d)
      = (m ((c : Thread nD τ).loc main_arg0) : S16x32x32x512.Idx → EReal) (ix4 b i j d) := by
  rw [V_v0]; exact cast4_at _ b i j d

/-- The staged k at flattened position 32·i + j is the argument k at (i, j). -/
theorem K_at (c : Dev nD) (b : Fin 16) (i j : Fin 32) (d : Fin 512) :
    (V m c main_v1 : S16x1024x512.Idx → EReal) (ix3 b (pos i j) d)
      = (m ((c : Thread nD τ).loc main_arg1) : S16x32x32x512.Idx → EReal) (ix4 b i j d) := by
  rw [V_v1]; exact cast4_at _ b i j d

/-- The staged embedding at flattened position 32·i + j is the argument at (i, j). -/
theorem E_at (c : Dev nD) (i j : Fin 32) (d : Fin 512) :
    (V m c main_v2 : S1024x512.Idx → EReal) (ix2 (pos i j) d)
      = (m ((c : Thread nD τ).loc main_arg2) : S32x32x512.Idx → EReal) (ix3 i j d) := by
  rw [V_v2]; exact cast3_at _ i j d

/-- So is its copy in the narrower format. -/
theorem E'_at (c : Dev nD) (i j : Fin 32) (d : Fin 512) :
    (V m c main_v3 : S1024x512.Idx → EReal) (ix2 (pos i j) d)
      = (m ((c : Thread nD τ).loc main_arg2) : S32x32x512.Idx → EReal) (ix3 i j d) := by
  rw [V_v3]; exact cast3_at _ i j d

end Cert.KernelIdeal.Entry

end
-- ==== Proof.LibColumnJoin.lean ====
/-
  Two general facts used to read a matrix product whose operands are joined along the feature axis.

  * Joining an [R, A] matrix u and an [R, B] matrix v along axis 1 gives an [R, N] matrix (N = A + B) whose entry (r, c)
    is u (r, c) for c < A and v (r, c − A) for A ≤ c (`join_cols_left`, `join_cols_right`).
  * In any commutative additive monoid, a sum over n + m consecutive indices is the sum over the first n plus the sum over
    the last m (`sum_fin_split`), with the two ranges given as explicit `Fin N` values so that no index type has to be
    spelt as a sum.
-/
import Idealize.ShloMosaic.Lib.Pipeline.Value
import Idealize.ShloMosaic.Lib.ValueIdx

noncomputable section

namespace Idealize.ShloMosaic.ColumnJoin

open Idealize.ShloMosaic Idealize.ShloMosaic.ValueIdx

variable {α : Type}

/-- Entry (r, c) of [u | v], for a column c that falls in u: it is u (r, c). -/
theorem join_cols_left {R A B N : Nat} (u : (⟨2, ![R, A]⟩ : Shape).Idx → α) (v : (⟨2, ![R, B]⟩ : Shape).Idx → α)
    (h : Shape.Concatenates [(⟨2, ![R, A]⟩ : Shape), ⟨2, ![R, B]⟩] ⟨2, ![R, N]⟩ 1)
    (r : Fin R) (c : Fin N) (d : Fin A) (hc : c.val = d.val) :
    concatenate (⟨2, ![R, N]⟩ : Shape) 1 [⟨⟨2, ![R, A]⟩, u⟩, ⟨⟨2, ![R, B]⟩, v⟩] h (ix2 r c) = u (ix2 r d) :=
  concatenate_pair_apply_left 1 u v h (ix2 r c) rfl (ix2 r d) (fun b => match b with
    | ⟨0, _⟩ => rfl
    | ⟨1, _⟩ => hc.symm)

/-- Entry (r, c) of [u | v], for a column c past u's A columns: it is v (r, c − A). -/
theorem join_cols_right {R A B N : Nat} (u : (⟨2, ![R, A]⟩ : Shape).Idx → α) (v : (⟨2, ![R, B]⟩ : Shape).Idx → α)
    (h : Shape.Concatenates [(⟨2, ![R, A]⟩ : Shape), ⟨2, ![R, B]⟩] ⟨2, ![R, N]⟩ 1)
    (r : Fin R) (c : Fin N) (d : Fin B) (hc : c.val = A + d.val) :
    concatenate (⟨2, ![R, N]⟩ : Shape) 1 [⟨⟨2, ![R, A]⟩, u⟩, ⟨⟨2, ![R, B]⟩, v⟩] h (ix2 r c) = v (ix2 r d) :=
  concatenate_pair_apply_right 1 u v h (ix2 r c) rfl rfl (ix2 r d) (fun b hb => match b, hb with
    | ⟨0, _⟩, _ => rfl
    | ⟨1, _⟩, hb => absurd rfl hb)
    (by show d.val + A = c.val; omega)

/-- A sum over `N = n + m` indices is the sum over the first `n` plus the sum over the last `m`. -/
theorem sum_fin_split {M : Type*} [AddCommMonoid M] {N : Nat} (n m : Nat) (hN : N = n + m) (f : Fin N → M) :
    ∑ k : Fin N, f k
      = (∑ d : Fin n, f ⟨d.val, by have := d.isLt; omega⟩) + ∑ d : Fin m, f ⟨n + d.val, by have := d.isLt; omega⟩ := by
  subst hN
  exact Fin.sum_univ_add f

end Idealize.ShloMosaic.ColumnJoin

end
-- ==== Proof.Payload.lean ====
/-
  The kernel body's stored value, read at one entry.

  The body loads a [1, 1024, 512] block of q and of k and the whole [1024, 512] position embedding twice (once in each
  float format), forms lhs = [q | e'] and rhs = [e' | k + e] of width 1024 by joining along the feature axis, and stores the
  product lhs · rhsᵀ accumulated into zero. Entry (r, c) of that product is the sum over the 1024 joined features; the first
  512 features contribute Σ_d q[r, d] · e'[c, d] and the last 512 contribute Σ_d e'[r, d] · (k[c, d] + e[c, d]).
  A change of float format is the identity on extended reals, so it leaves no trace in the sums.
-/
import proofs.«170519_j66151086293478_2_alg».proof.Proof.Gen.KernelIdeal.Skeleton
import proofs.«170519_j66151086293478_2_alg».proof.Proof.LibColumnJoin
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Idealize.ShloMosaic.ColumnJoin

/-- A [1, 1024, 512] block viewed as a [1024, 512] matrix: entry (r, d) is the block's entry (0, r, d). -/
theorem dropUnit_apply {α : Type} (x : S1x1024x512.Idx → α) (h : S1x1024x512.ShapeCasts S1024x512) (r : Fin 1024) (d : Fin 512) :
    shapeCast S1024x512 x h (ix2 r d) = x (ix3 (0 : Fin 1) r d) :=
  (shapeCast_dropUnit_apply ![1024, 512] x h (ix2 r d)).trans
    (congrArg x (funext fun a => match a with | ⟨0, _⟩ => rfl | ⟨1, _⟩ => rfl | ⟨2, _⟩ => rfl))

/-- A [1024, 1024] matrix stored as a [1, 1024, 1024] block: the block's entry (0, r, c) is the matrix's entry (r, c). -/
theorem addUnit_apply {α : Type} (x : S1024x1024.Idx → α) (h : S1024x1024.ShapeCasts S1x1024x1024) (r c : Fin 1024) :
    shapeCast S1x1024x1024 x h (ix3 (0 : Fin 1) r c) = x (ix2 r c) :=
  (shapeCast_addUnit_apply ![1024, 1024] x h (ix3 (0 : Fin 1) r c)).trans
    (congrArg x (funext fun a => match a with | ⟨0, _⟩ => rfl | ⟨1, _⟩ => rfl))

/-- The left operand's row at output entry i is i's row. -/
theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- The right operand's row at output entry i is i's column: the product is against the transpose. -/
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The product A · Bᵀ accumulated into zero, at (r, c): the sum over the 1024 features of A (r, ·) · B (c, ·). -/
theorem matmul_entry (A B : FVec Ideal S1024x1024 .bf16) (r c : Fin 1024) :
    matmul dot_S1024x1024_S1024x1024_S1024x1024_1_1_0_0_n_n none A B (constant S1024x1024 .f32 0x00000000#32) (ix2 r c)
      = ∑ k : Fin 1024, A (ix2 r k) * B (ix2 c k) := by
  refine (Ideal.matmul_constant_zero_apply dot_S1024x1024_S1024x1024_S1024x1024_1_1_0_0_n_n none A B (ix2 r c)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 r c)
      ((contrEquiv1 dot_S1024x1024_S1024x1024_S1024x1024_1_1_0_0_n_n 1024 rfl rfl).symm k) = ix2 r k :=
    funext fun a => Fin.ext (by
      match a with
      | ⟨0, _⟩ => exact lhs_row _ _
      | ⟨1, _⟩ => exact (dot_S1024x1024_S1024x1024_S1024x1024_1_1_0_0_n_n.lhsIdx_val_of_single rfl _ _).trans hk)
  have er : dot_S1024x1024_S1024x1024_S1024x1024_1_1_0_0_n_n.rhsIdx (ix2 r c)
      ((contrEquiv1 dot_S1024x1024_S1024x1024_S1024x1024_1_1_0_0_n_n 1024 rfl rfl).symm k) = ix2 c k :=
    funext fun a => Fin.ext (by
      match a with
      | ⟨0, _⟩ => exact rhs_row _ _
      | ⟨1, _⟩ => exact (dot_S1024x1024_S1024x1024_S1024x1024_1_1_0_0_n_n.rhsIdx_val_of_single rfl _ _).trans hk)
  rw [el, er]

/-- The stored block at (0, r, c), as the two half-sums over the loaded blocks. -/
theorem pay_apply (x0 : Vec Ideal S1x1024x512 .f32) (x3 : Vec Ideal S1024x512 .bf16) (x5 : Vec Ideal S1x1024x512 .f32)
    (x7 : Vec Ideal S1024x512 .f32) (r c : Fin 1024) :
    k0_pay1 x0 x3 x5 x7 (ix3 (0 : Fin 1) r c)
      = (∑ d : Fin 512, x0 (ix3 (0 : Fin 1) r d) * x3 (ix2 c d))
        + ∑ d : Fin 512, x3 (ix2 r d) * (x5 (ix3 (0 : Fin 1) c d) + x7 (ix2 c d)) := by
  unfold k0_pay1
  refine (addUnit_apply _ _ r c).trans ?_
  refine (matmul_entry _ _ r c).trans ?_
  refine (sum_fin_split 512 512 rfl _).trans ?_
  refine congrArg₂ (· + ·) (Finset.sum_congr rfl fun d _ => ?_) (Finset.sum_congr rfl fun d _ => ?_)
  · refine congrArg₂ (· * ·) ((join_cols_left (N := 1024) _ _ _ r ⟨d.val, by have := d.isLt; omega⟩ d rfl).trans ?_)
      ((join_cols_left (N := 1024) _ _ _ c ⟨d.val, by have := d.isLt; omega⟩ d rfl).trans ?_)
    · exact dropUnit_apply x0 _ r d
    · exact congrFun (shapeCast_self x3 _) (ix2 c d)
  · refine congrArg₂ (· * ·) ((join_cols_right (N := 1024) _ _ _ r ⟨512 + d.val, by have := d.isLt; omega⟩ d rfl).trans ?_)
      ((join_cols_right (N := 1024) _ _ _ c ⟨512 + d.val, by have := d.isLt; omega⟩ d rfl).trans ?_)
    · exact congrFun (shapeCast_self x3 _) (ix2 r d)
    · exact congrArg₂ (· + ·) (dropUnit_apply x5 _ c d) (congrFun (shapeCast_self x7 _) (ix2 c d))

end Cert.KernelIdeal.Body

end
-- ==== Proof.Blocks.lean ====
/-
  From what each grid point writes back to the whole [16, 1024, 1024] array of flat logits.

  Grid point t handles batch t: its q and k blocks are rows (t, ·, ·) of the staged arrays, both copies of the embedding are
  staged whole, and the block it writes back is rows (t, ·, ·) of the output. By the body's value at an entry the block
  written at point t is block t of the array `flat` of the staged arrays; the sixteen blocks tile the output, so after the
  region the output array is `flat`.
-/
import proofs.«170519_j66151086293478_2_alg».proof.Proof.Gen.KernelIdeal.Frame
import proofs.«170519_j66151086293478_2_alg».proof.Proof.Spec
import proofs.«170519_j66151086293478_2_alg».proof.Proof.Payload
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.Logits
open Idealize.ShloMosaic.Pipeline (Dat)

variable (m : (ℓ : Loc nD τ sig) → Buf (Elt Ideal) ℓ)

/-- The zero offsets of a rank-3 and of a rank-2 access, as constant functions. -/
theorem hz3 : (![0, 0, 0] : Fin 3 → Nat) = fun _ => 0 := funext fun a => by fin_cases a <;> rfl
theorem hz2 : (![0, 0] : Fin 2 → Nat) = fun _ => 0 := funext fun a => by fin_cases a <;> rfl

/-- The block index of every window at every grid point: the batch windows sit at block (t, 0, 0), the embedding windows at
    block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The batch a grid point handles. -/
def batch (t : Fin cfg0.N) : Fin 16 := ⟨t.val, by have := t.isLt; have hN : grid0.N = 16 := N_0; exact hN ▸ this⟩

/-- Point t's q block at (0, r, d) is the staged q at (t, r, d). -/
theorem iblk0_apply (c : Dev nD) (t : Fin cfg0.N) (r : Fin 1024) (d : Fin 512) :
    (iblk m c 0 t : Vec Ideal S1x1024x512 .f32) (ix3 (0 : Fin 1) r d)
      = (V m c main_v0 : S16x1024x512.Idx → EReal) (ix3 (batch t) r d) := by
  obtain ⟨h0, h1, h2, -⟩ := idx_facts t
  unfold iblk
  rw [View.read_apply]
  show (V m c main_v0 : S16x1024x512.Idx → EReal) _ = (V m c main_v0 : S16x1024x512.Idx → EReal) _
  refine congrArg (V m c main_v0 : S16x1024x512.Idx → EReal) (funext fun a => Fin.ext ?_)
  match a with
  | ⟨0, _⟩ => show win0_0.index t (0 : Fin 3) * 1 + 1 * 0 = t.val; omega
  | ⟨1, _⟩ => show win0_0.index t (1 : Fin 3) * 1024 + 1 * r.val = r.val; omega
  | ⟨2, _⟩ => show win0_0.index t (2 : Fin 3) * 512 + 1 * d.val = d.val; omega

/-- Point t's k block at (0, r, d) is the staged k at (t, r, d). -/
theorem iblk1_apply (c : Dev nD) (t : Fin cfg0.N) (r : Fin 1024) (d : Fin 512) :
    (iblk m c 1 t : Vec Ideal S1x1024x512 .f32) (ix3 (0 : Fin 1) r d)
      = (V m c main_v1 : S16x1024x512.Idx → EReal) (ix3 (batch t) r d) := by
  obtain ⟨-, -, -, h0, h1, h2, -⟩ := idx_facts t
  unfold iblk
  rw [View.read_apply]
  show (V m c main_v1 : S16x1024x512.Idx → EReal) _ = (V m c main_v1 : S16x1024x512.Idx → EReal) _
  refine congrArg (V m c main_v1 : S16x1024x512.Idx → EReal) (funext fun a => Fin.ext ?_)
  match a with
  | ⟨0, _⟩ => show win0_1.index t (0 : Fin 3) * 1 + 1 * 0 = t.val; omega
  | ⟨1, _⟩ => show win0_1.index t (1 : Fin 3) * 1024 + 1 * r.val = r.val; omega
  | ⟨2, _⟩ => show win0_1.index t (2 : Fin 3) * 512 + 1 * d.val = d.val; omega

/-- The embedding's block at every point is the whole staged embedding. -/
theorem iblk2_apply (c : Dev nD) (t : Fin cfg0.N) (r : Fin 1024) (d : Fin 512) :
    (iblk m c 2 t : Vec Ideal S1024x512 .f32) (ix2 r d) = (V m c main_v2 : S1024x512.Idx → EReal) (ix2 r d) := by
  obtain ⟨-, -, -, -, -, -, h0, h1, -⟩ := idx_facts t
  unfold iblk
  rw [View.read_apply]
  show (V m c main_v2 : S1024x512.Idx → EReal) _ = (V m c main_v2 : S1024x512.Idx → EReal) _
  refine congrArg (V m c main_v2 : S1024x512.Idx → EReal) (funext fun a => Fin.ext ?_)
  match a with
  | ⟨0, _⟩ => show win0_2.index t (0 : Fin 2) * 1024 + 1 * r.val = r.val; omega
  | ⟨1, _⟩ => show win0_2.index t (1 : Fin 2) * 512 + 1 * d.val = d.val; omega

/-- The same for its copy in the narrower format. -/
theorem iblk3_apply (c : Dev nD) (t : Fin cfg0.N) (r : Fin 1024) (d : Fin 512) :
    (iblk m c 3 t : Vec Ideal S1024x512 .bf16) (ix2 r d) = (V m c main_v3 : S1024x512.Idx → EReal) (ix2 r d) := by
  obtain ⟨-, -, -, -, -, -, -, -, h0, h1, -⟩ := idx_facts t
  unfold iblk
  rw [View.read_apply]
  show (V m c main_v3 : S1024x512.Idx → EReal) _ = (V m c main_v3 : S1024x512.Idx → EReal) _
  refine congrArg (V m c main_v3 : S1024x512.Idx → EReal) (funext fun a => Fin.ext ?_)
  match a with
  | ⟨0, _⟩ => show win0_3.index t (0 : Fin 2) * 1024 + 1 * r.val = r.val; omega
  | ⟨1, _⟩ => show win0_3.index t (1 : Fin 2) * 512 + 1 * d.val = d.val; omega

/-- The flat logits of the staged arrays. -/
abbrev G (c : Dev nD) : S16x1024x1024.Idx → EReal :=
  flat (V m c main_v0 : S16x1024x512.Idx → EReal) (V m c main_v1 : S16x1024x512.Idx → EReal)
    (V m c main_v2 : S1024x512.Idx → EReal) (V m c main_v3 : S1024x512.Idx → EReal)

/-- The block the body leaves at point t: entry (0, r, c) is the flat logit of batch t between positions r and c. -/
theorem block_eq (c : Dev nD) (t : Fin cfg0.N) :
    (k0_pay1 (iblk m c 0 t) (iblk m c 3 t) (iblk m c 1 t) (iblk m c 2 t) : S1x1024x1024.Idx → EReal)
      = fun y : S1x1024x1024.Idx => flatAt (V m c main_v0 : S16x1024x512.Idx → EReal) (V m c main_v1 : S16x1024x512.Idx → EReal)
          (V m c main_v2 : S1024x512.Idx → EReal) (V m c main_v3 : S1024x512.Idx → EReal) (batch t) (y 1) (y 2) := by
  funext y
  obtain ⟨r, c', rfl⟩ : ∃ (r c' : Fin 1024), y = ix3 (0 : Fin 1) r c' :=
    ⟨y 1, y 2, funext fun a => match a with
      | ⟨0, _⟩ => Fin.ext (Nat.lt_one_iff.mp (y 0).isLt)
      | ⟨1, _⟩ => rfl
      | ⟨2, _⟩ => rfl⟩
  refine (Body.pay_apply (iblk m c 0 t) (iblk m c 3 t) (iblk m c 1 t) (iblk m c 2 t) r c').trans ?_
  exact congrArg₂ (· + ·)
    (Finset.sum_congr rfl fun d _ => congrArg₂ (· * ·) (iblk0_apply m c t r d) (iblk3_apply m c t c' d))
    (Finset.sum_congr rfl fun d _ => congrArg₂ (· * ·) (iblk3_apply m c t r d)
      (congrArg₂ (· + ·) (iblk1_apply m c t c' d) (iblk2_apply m c t c' d)))

/-- WHAT POINT t WRITES BACK is block t of the flat logits of the staged arrays. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold out0_4
  rw [View.canon_unit_zero hz3]
  simp only [View.ld_unit_zero (S := S1x1024x512) hz3, View.ld_unit_zero (S := S1024x512) hz2]
  rw [block_eq]
  obtain ⟨-, -, -, -, -, -, -, -, -, -, h0, h1, h2⟩ := idx_facts t
  funext y
  show flatAt _ _ _ _ (batch t) (y 1) (y 2) = flat _ _ _ _ (((cfg0.win 4).blk t).view.emb y)
  unfold flat
  have hy0 : (y 0).val < 1 := (y 0).isLt
  have e0 : ((cfg0.win 4).blk t).view.emb y 0 = batch t :=
    Fin.ext (show win0_4.index t (0 : Fin 3) * 1 + 1 * (y 0).val = t.val by omega)
  have e1 : ((cfg0.win 4).blk t).view.emb y 1 = y 1 :=
    Fin.ext (show win0_4.index t (1 : Fin 3) * 1024 + 1 * (y 1).val = (y 1).val by omega)
  have e2 : ((cfg0.win 4).blk t).view.emb y 2 = y 2 :=
    Fin.ext (show win0_4.index t (2 : Fin 3) * 1024 + 1 * (y 2).val = (y 2).val by omega)
  rw [e0, e1, e2]

/-- An index of the output array is in point t's block iff each coordinate is in the block's range on its axis. -/
theorem mem_blk (t : Fin cfg0.N) (i : S16x1024x1024.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v4).slice (win0_4.rect t)).set ↔ _
  rw [View.set_slice_whole, Rect.mem_set_unit]
  exact Iff.rfl

/-- Every index of the output array lies in the block of the point that handles its batch. -/
theorem cover (i : S16x1024x1024.Idx) :
    ∃ t : Fin cfg0.N, (cfg0.win 4).flush t = true ∧ i ∈ ((cfg0.win 4).blk t).view.set := by
  have hN : grid0.N = 16 := N_0
  have hi0 : (i 0).val < 16 := (i 0).isLt
  have hi1 : (i 1).val < 1024 := (i 1).isLt
  have hi2 : (i 2).val < 1024 := (i 2).isLt
  have ht : (i 0).val < cfg0.N := by show (i 0).val < grid0.N; omega
  refine ⟨⟨(i 0).val, ht⟩, flush0_4 _, ?_⟩
  obtain ⟨-, -, -, -, -, -, -, -, -, -, h0, h1, h2⟩ := idx_facts ⟨(i 0).val, ht⟩
  replace h0 : win0_4.index ⟨(i 0).val, ht⟩ (0 : Fin 3) = (i 0).val := h0
  rw [mem_blk]
  intro a
  match a with
  | ⟨0, _⟩ =>
    show win0_4.index ⟨(i 0).val, ht⟩ (0 : Fin 3) * 1 ≤ (i 0).val ∧ (i 0).val < win0_4.index ⟨(i 0).val, ht⟩ (0 : Fin 3) * 1 + 1
    rw [h0]; omega
  | ⟨1, _⟩ =>
    show win0_4.index ⟨(i 0).val, ht⟩ (1 : Fin 3) * 1024 ≤ (i 1).val ∧ (i 1).val < win0_4.index ⟨(i 0).val, ht⟩ (1 : Fin 3) * 1024 + 1024
    rw [h1]; omega
  | ⟨2, _⟩ =>
    show win0_4.index ⟨(i 0).val, ht⟩ (2 : Fin 3) * 1024 ≤ (i 2).val ∧ (i 2).val < win0_4.index ⟨(i 0).val, ht⟩ (2 : Fin 3) * 1024 + 1024
    rw [h2]; omega

/-- THE OUTPUT ARRAY after the region is the flat logits of the staged arrays. -/
theorem final (c : Dev nD) : (dats m 0 c).arrAt 4 cfg0.N = G m c :=
  (dats m 0 c).arrAt_eq_of_cover 4 (G m c) (fun t _ => flushed_eq m c t) cover

end Cert.KernelIdeal.Blocks

end
-- ==== Proof.KernelRun.lean ====
/-
  The kernel program's run, with its result named.

  After the region the program re-reads the [16, 1024, 1024] output row-major as [16, 32, 32, 32, 32]: entry
  (b, i, j, k, l) is the flat logit of batch b between positions 32·i + j and 32·k + l, which is the logit between grid
  positions (i, j) and (k, l) of the arguments.
-/
import proofs.«170519_j66151086293478_2_alg».proof.Proof.Gen.KernelIdeal.Frame
import proofs.«170519_j66151086293478_2_alg».proof.Proof.Spec
import proofs.«170519_j66151086293478_2_alg».proof.Proof.Entry
import proofs.«170519_j66151086293478_2_alg».proof.Proof.Blocks
import Idealize.ShloMosaic.Lib.StableHlo.Run
import Idealize.ShloMosaic.Lib.Pipeline.Value
import Idealize.ShloMosaic.Lib.ValueIdx

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo Cert.Logits
open Idealize.ShloMosaic.Pipeline (Dat)

variable (m : (ℓ : Loc nD τ sig) → Buf (Elt Ideal) ℓ) (ρ : Dev nD → PrngReg)

/-- The result array after the final re-reading of the region's output is the array of logits of the arguments. -/
theorem tail_eq (c : Dev nD) : Pipeline.afterTail₀ cfgs (dats m) 0 (V0 m) [hostOps1] c main_v5
    = logits (m ((c : Thread nD τ).loc main_arg0)) (m ((c : Thread nD τ).loc main_arg1)) (m ((c : Thread nD τ).loc main_arg2)) := by
  unfold Pipeline.afterTail₀
  show StableHlo.after hostOps1 _ (Proc.devRef .tc main_v5) = _
  after_results
  have hw : Pipeline.withArrays (cfgs 0).spec c (V0 m c) (fun w => (dats m 0 c).arrAt w (cfgs 0).N)
      (Proc.devRef .tc main_v4) = Blocks.G m c :=
    (Pipeline.withArrays_arr spec0 launch0.win.arr_inj c _ _ 4).trans (Blocks.final m c)
  rw [hw]
  funext i
  obtain ⟨b, i1, j1, k1, l1, rfl⟩ : ∃ (b : Fin 16) (i1 j1 k1 l1 : Fin 32), i = ix5 b i1 j1 k1 l1 :=
    ⟨i 0, i 1, i 2, i 3, i 4, eq_ix5 i⟩
  show shapeCast S16x32x32x32x32 (Blocks.G m c) shapeCasts_S16x1024x1024_S16x32x32x32x32 (ix5 b i1 j1 k1 l1) = _
  refine (shapeCast_apply _ _ (ix5 b i1 j1 k1 l1) (ix3 b (pos i1 j1) (pos k1 l1)) ?_).trans ?_
  · rw [Shape.rowMajor_val_three, Shape.rowMajor_val_five]
    show (b.val * 1024 + (32 * i1.val + j1.val)) * 1024 + (32 * k1.val + l1.val)
      = (((b.val * 32 + i1.val) * 32 + j1.val) * 32 + k1.val) * 32 + l1.val
    omega
  · exact flatAt_eq_logitsAt _ _ _ _ _ _ _ (Entry.Q_at m c) (Entry.K_at m c) (Entry.E_at m c) (Entry.E'_at m c) b i1 j1 k1 l1

/-- Every weakly fair execution of the kernel program terminates with the result array at the logits of the arguments and
    the arguments unchanged. -/
theorem run : θ_run defs (onTc (τ := τ) (main (F := Ideal))) ⟨m, fun _ => 0, ρ⟩ fun r => ∀ c : Dev nD,
      r.2.mem ((c.tc : Thread nD τ).loc main_v5)
        = logits (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.Reference.lean ====
/-
  The reference's result is the same function of the arguments.

  The reference adds two contractions over the 512 features: q against the embedding, giving the entry (b, i, j, k, l) as
  Σ_d q[b, i, j, d] · e[k, l, d]; and k + e (the embedding repeated over the batch) against the embedding, produced as
  [b, k, l, i, j] and then transposed, giving Σ_d (k[b, k, l, d] + e[k, l, d]) · e[i, j, d]. The second product's factors
  are in the other order from the kernel's; multiplication of extended reals is commutative.
-/
import proofs.«170519_j66151086293478_2_alg».proof.Proof.Gen.ReferenceIdeal.Read
import proofs.«170519_j66151086293478_2_alg».proof.Proof.Spec
import Idealize.ShloMosaic.Lib.ValueIdx

noncomputable section

namespace Cert.ReferenceIdeal.RefValue

open Cert.ReferenceIdeal Cert.ReferenceIdeal.Read Idealize.ShloMosaic Idealize.ShloMosaic.ValueIdx Cert.Logits

/-- The reference's result array, at the ideal instance, is the array of logits. -/
theorem val_eq_logits (x0 x1 : S16x32x32x512.Idx → EReal) (x2 : S32x32x512.Idx → EReal) :
    val_main_v6 (F := Ideal) x0 x1 x2 = logits x0 x1 x2 := by
  funext i
  obtain ⟨b, i1, j1, k1, l1, rfl⟩ : ∃ (b : Fin 16) (i1 j1 k1 l1 : Fin 32), i = ix5 b i1 j1 k1 l1 :=
    ⟨i 0, i 1, i 2, i 3, i 4, eq_ix5 i⟩
  rw [val_main_v6_apply, val_main_v0_apply, val_main_v5_apply, val_main_v4_apply]
  show (_ : EReal) + _ = logitsAt x0 x1 x2 b i1 j1 k1 l1
  unfold logitsAt
  refine congrArg₂ (· + ·) (Finset.sum_congr rfl fun d _ => ?_) (Finset.sum_congr rfl fun d _ => ?_)
  · have e1 : lidx_main_v0 (ix5 b i1 j1 k1 l1) d = ix4 b i1 j1 d :=
      funext fun a => match a with | ⟨0, _⟩ => rfl | ⟨1, _⟩ => rfl | ⟨2, _⟩ => rfl | ⟨3, _⟩ => rfl
    have e2 : ridx_main_v0 (ix5 b i1 j1 k1 l1) d = ix3 k1 l1 d :=
      funext fun a => match a with | ⟨0, _⟩ => rfl | ⟨1, _⟩ => rfl | ⟨2, _⟩ => rfl
    rw [e1, e2]
  · rw [val_main_v3_apply, val_main_v2_apply, val_main_v1_apply]
    have e1 : lidx_main_v4 (idx_main_v5 (ix5 b i1 j1 k1 l1)) d = ix4 b k1 l1 d :=
      funext fun a => match a with | ⟨0, _⟩ => rfl | ⟨1, _⟩ => rfl | ⟨2, _⟩ => rfl | ⟨3, _⟩ => rfl
    have e2 : idx_main_v1 (idx_main_v2 (ix4 b k1 l1 d)) = ix3 k1 l1 d :=
      funext fun a => match a with | ⟨0, _⟩ => rfl | ⟨1, _⟩ => rfl | ⟨2, _⟩ => rfl
    have e3 : ridx_main_v4 (idx_main_v5 (ix5 b i1 j1 k1 l1)) d = ix3 i1 j1 d :=
      funext fun a => match a with | ⟨0, _⟩ => rfl | ⟨1, _⟩ => rfl | ⟨2, _⟩ => rfl
    rw [e1, e2, e3]
    exact mul_comm _ _

end Cert.ReferenceIdeal.RefValue

end
-- ==== Proof.lean ====
/-
  The kernel computes, for every batch b and grid positions (i, j), (k, l),

      logits[b, i, j, k, l] = Σ_d q[b, i, j, d] · e[k, l, d]  +  Σ_d e[i, j, d] · (k[b, k, l, d] + e[k, l, d]),

  as ONE contraction over 1024 joined features of [q | e] against [e | k + e] per batch, on positions flattened to
  p = 32·i + j; the reference computes the two contractions separately and adds them. Over the extended reals the two
  agree entry by entry using only that a sum over the joined features splits into the sums over its two halves and that
  multiplication is commutative, so the finiteness of the inputs is never used.

  Proof/Spec.lean states the function; Proof/Payload.lean reads the kernel body's stored value at an entry;
  Proof/Entry.lean reads the arrays the region finds; Proof/Blocks.lean goes from the blocks written at the sixteen grid
  points to the whole output array; Proof/KernelRun.lean reads the result after the final re-reading of the output;
  Proof/Reference.lean shows the reference's result is the same function. Nothing was rewritten by the idealization, so
  the kernel's idealization is its own text read over the extended reals.
-/
import proofs.«170519_j66151086293478_2_alg».proof.Defs
import proofs.«170519_j66151086293478_2_alg».proof.Proof.Gen.Kernel
import proofs.«170519_j66151086293478_2_alg».proof.Proof.Gen.Kernel.Skeleton
import proofs.«170519_j66151086293478_2_alg».proof.Proof.Gen.Kernel.Launch
import proofs.«170519_j66151086293478_2_alg».proof.Proof.Gen.Kernel.Points
import proofs.«170519_j66151086293478_2_alg».proof.Proof.Gen.Kernel.Frame
import proofs.«170519_j66151086293478_2_alg».proof.Proof.Gen.KernelIdeal
import proofs.«170519_j66151086293478_2_alg».proof.Proof.Gen.KernelIdeal.Skeleton
import proofs.«170519_j66151086293478_2_alg».proof.Proof.Gen.KernelIdeal.Launch
import proofs.«170519_j66151086293478_2_alg».proof.Proof.Gen.KernelIdeal.Points
import proofs.«170519_j66151086293478_2_alg».proof.Proof.Gen.KernelIdeal.Frame
import proofs.«170519_j66151086293478_2_alg».proof.Proof.Gen.ReferenceIdeal
import proofs.«170519_j66151086293478_2_alg».proof.Proof.Gen.Pre_finite_inputs
import proofs.«170519_j66151086293478_2_alg».proof.Proof.Gen.ReferenceIdeal.Run
import proofs.«170519_j66151086293478_2_alg».proof.Proof.Gen.ReferenceIdeal.Read
import proofs.«170519_j66151086293478_2_alg».proof.Proof.Spec
import proofs.«170519_j66151086293478_2_alg».proof.Proof.KernelRun
import proofs.«170519_j66151086293478_2_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the array of logits of their (agreeing) arguments. -/
theorem algebraic : Cert.algebraic_KernelIdeal_ReferenceIdeal := by
  intro m ρ m' ρ' _ hagree
  refine ⟨fun c => Cert.Logits.logits (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.val_eq_logits,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
